-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x128 : Shape := ⟨2, ![64, 128]⟩
abbrev S_ : Shape := ⟨0, ![]⟩
abbrev S128 : Shape := ⟨1, ![128]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 70
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x128, .f32⟩
  | .hbm, ⟨7, _⟩ => ⟨S_, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S100000x128, .f32⟩
  | .hbm, ⟨12, _⟩ => ⟨S100000x64, .f32⟩
  | .hbm, ⟨13, _⟩ => ⟨S100000x64, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S64x64_S64x64_S64x128_d1 : Shape.Concatenates [S64x64, S64x64] S64x128 1
  bcast_S_S64 : S_.BroadcastsInDim S64 (![] : Fin 0 → Fin S64.rank)
  concatenates_S64_S64_S128_d0 : Shape.Concatenates [S64, S64] S128 0
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S100000x128_S100000x64_0_0 : S100000x128.Slices ![0, 0] S100000x64
  slices_S100000x128_S100000x64_0_64 : S100000x128.Slices ![0, 64] S100000x64
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x64_S64x128_S10000x128_1_0_0_1_n_n_wf : DotDims.WF S10000x64 S64x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Tail.lean ====
/-
  The graph aggregation both programs end with, as ONE function of the two dense products.

  With `src` and `dst` the edge list's two rows, each followed by 0 .. 99999 (a self loop per node), `deg` the number of
  times a node occurs in `dst` and `dinv = rsqrt (max deg 1)`, the result is, row by row,

      out[n] = (sum over edges e with dst[e] = n of h[src[e]] * (dinv[src[e]] * dinv[dst[e]])) + b + lin[n],

  where `h` is the features times the convolution weight and `lin` the features times the residual weight plus its bias.
  Everything but `h` and `lin` depends on the edge list and on `b` alone, and is never opened here: the two programs
  differ only in how they compute `h` and `lin`.
-/
import proofs.«160658_j27410481283133_1_alg».proof.Proof.Gen.ReferenceIdeal.Read

noncomputable section

namespace Cert.ReferenceIdeal.Conv

open Cert.ReferenceIdeal Cert.ReferenceIdeal.Gen Cert.ReferenceIdeal.Read Idealize.ShloMosaic

variable {F : FTy → Type} [FloatOps F]

/-- The aggregation of `h` over the edges `e`, plus the bias `b`, plus `lin`. -/
def aggregate (h lin : (⟨S100000x64, .f32⟩ : BufTy).Contents (Elt F)) (e : (⟨S2x1600000, .i32⟩ : BufTy).Contents (Elt F))
    (b : (⟨S64, .f32⟩ : BufTy).Contents (Elt F)) : (⟨S100000x64, .f32⟩ : BufTy).Contents (Elt F) :=
  addf (addf (Host.scatterAdd scatter_S100000x64_S1700000x1_S1700000x64_1_0_0_1 (val_main_v40 (F := F)) (val_main_v41 (F := F) e)
      (mulf (Host.gather gather_S100000x64_S1700000x1_S1700000x64_1_0_n_n_0_1_164 h (val_main_v35 (F := F) e)) (val_main_v38 (F := F) e)))
    (val_main_v44 (F := F) b)) lin

/-- The reference's result is the aggregation of its own two products: `h` the features times the convolution
    weight, `lin` the features times the residual weight plus the residual bias. -/
theorem reference_eq (x0 : (⟨S100000x64, .f32⟩ : BufTy).Contents (Elt F)) (x1 : (⟨S2x1600000, .i32⟩ : BufTy).Contents (Elt F))
    (x2 : (⟨S64x64, .f32⟩ : BufTy).Contents (Elt F)) (x3 : (⟨S64, .f32⟩ : BufTy).Contents (Elt F))
    (x4 : (⟨S64x64, .f32⟩ : BufTy).Contents (Elt F)) (x5 : (⟨S64, .f32⟩ : BufTy).Contents (Elt F)) :
    val_main_v50 (F := F) x0 x1 x2 x3 x4 x5
      = aggregate (val_main_v29 (F := F) x0 x2) (val_main_v49 (F := F) x0 x4 x5) x1 x3 := rfl

end Cert.ReferenceIdeal.Conv

end
-- ==== Proof.LibMatmulAt.lean ====
/-
  General lemmas, on the extended reals and on index arithmetic, with no program in them:
  a plain matrix product into a zero accumulator read at one entry, and two changes of shape that only move a unit axis.
-/
import Idealize.ShloMosaic.Lib.Pipeline.Value
import Idealize.ShloMosaic.Lib.ValueIdx
import Idealize.ShloMosaic.PureOps.Ideal.Laws

noncomputable section

namespace Cert.LibMatmulAt

open Idealize.ShloMosaic Idealize.ShloMosaic.ValueIdx

/-- A product of an [M, K] by a [K, N] matrix into a zero accumulator, read at row `p`, column `j`: the sum over the
    contracted axis of row `p` of the left factor against column `j` of the right one. The four hypotheses say where
    the dimension numbers put the output's coordinates and the contraction's in the operands. -/
theorem matmul_zero_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    matmul d prec lhs rhs (constant ⟨2, ![M, N]⟩ .f32 0x00000000#32) (ix2 p j) = ∑ k : Fin K, lhs (ix2 p k) * rhs (ix2 k j) := by
  show FloatOps.matmul d prec lhs rhs (constant ⟨2, ![M, N]⟩ .f32 0x00000000#32) (ix2 p j) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A vector of `a` numbers viewed as a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` numbers viewed as one row reads, at `(u, i)`, the column at `(i, v)`. -/
theorem shapeCast_a1_1a_apply {α : Type} {a : ℕ} (x : (⟨2, ![a, 1]⟩ : Shape).Idx → α) (h : (⟨2, ![a, 1]⟩ : Shape).ShapeCasts ⟨2, ![1, a]⟩)
    (u v : Fin 1) (i : Fin a) : shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.mul_one, Nat.add_zero, Nat.zero_mul, Nat.zero_add])

end Cert.LibMatmulAt

end
-- ==== Proof.Payload.lean ====
/-
  What the body stores at one grid point, entry by entry, on the extended reals.

  The body loads a block `x` of 10000 rows of the node features, the whole 64 x 128 weight `w` and the one-row
  bias `b`, narrows `x` and `w` (the identity on the extended reals), multiplies them into a zero accumulator and
  adds the bias row to every row. So entry (p, j) of what it stores is

      (sum over k < 64 of x (p, k) * w (k, j)) + b (0, j).
-/
import proofs.«160658_j27410481283133_1_alg».proof.Proof.Gen.KernelIdeal.Skeleton
import proofs.«160658_j27410481283133_1_alg».proof.Proof.LibMatmulAt
import Idealize.ShloMosaic.Lib.ValueLayout

noncomputable section

namespace Cert.KernelIdeal.Block

open Idealize.ShloMosaic Idealize.ShloMosaic.ValueIdx Cert.KernelIdeal Cert.KernelIdeal.Gen

/-! ## Where the product's dimension numbers put the coordinates -/

/-- The left factor's row is the output's row. -/
theorem lhs_row (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

/-- The left factor's column is the contracted coordinate. -/
theorem lhs_col (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

/-- The right factor's row is the contracted coordinate. -/
theorem rhs_row (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

/-- The right factor's column is the output's column. -/
theorem rhs_col (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-! ## The stored value at an entry -/

/-- Entry (p, j) of what the body stores: row `p` of the feature block against column `j` of the weight, plus the
    bias row at `j`. -/
theorem stored_apply (x : Vec Ideal S10000x64 .f32) (w : Vec Ideal S64x128 .f32) (b : Vec Ideal S1x128 .f32)
    (p : Fin 10000) (j : Fin 128) :
    k0_pay1 (F := Ideal) x w b (ix2 p j) = (∑ k : Fin 64, x (ix2 p k) * w (ix2 k j)) + b (ix2 (0 : Fin 1) j) := by
  unfold k0_pay1
  refine (addf_apply _ _ _).trans ?_
  refine congrArg₂ (· + ·) ?_ ?_
  · refine (Cert.LibMatmulAt.matmul_zero_apply dot_S10000x64_S64x128_S10000x128_1_0_0_1_n_n rfl rfl lhs_row lhs_col rhs_row rhs_col none _ _ p j).trans ?_
    refine Finset.sum_congr rfl fun k _ => ?_
    rw [shapeCast_self]
    rfl
  · refine (broadcastTo_1b_ab_apply _ _ p j).trans ?_
    rw [shapeCast_self]

end Cert.KernelIdeal.Block

end
-- ==== Proof.KernelArray.lean ====
/-
  The region's output array as ONE function of the arrays the region finds.

  The grid has ten points. Point `t` is given rows `10000 t .. 10000 t + 9999` of the node features, the whole
  64 x 128 weight and the whole one-row bias, and writes back rows `10000 t .. 10000 t + 9999` of the 100000 x 128 output.
  Entry (p, j) of what it stores is row `p` of its feature block against column `j` of the weight, plus the bias at `j`;
  so row `P = 10000 t + p` of the output depends on row `P` of the features alone, and the ten blocks, which tile the
  output, are the ten row bands of

      dense X Wt B (P, j) = (sum over k < 64 of X (P, k) * Wt (k, j)) + B (0, j).
-/
import proofs.«160658_j27410481283133_1_alg».proof.Proof.Gen.KernelIdeal.Frame
import proofs.«160658_j27410481283133_1_alg».proof.Proof.Payload
import Idealize.ShloMosaic.Lib.Pipeline.Value
import Idealize.ShloMosaic.Lib.StableHlo.Run
import Idealize.ShloMosaic.PureOps.Ideal

set_option maxRecDepth 16384

noncomputable section

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The body's rectangles start at the origin. -/
theorem origin : (![0, 0] : Fin 2 → Nat) = fun _ => 0 := funext fun a => by fin_cases a <;> rfl

/-! ## The function -/

/-- Entry (P, j): row `P` of the features against column `j` of the weight, plus the bias row at `j`. -/
def denseEntry (X : Vec Ideal S100000x64 .f32) (Wt : Vec Ideal S64x128 .f32) (B : Vec Ideal S1x128 .f32)
    (P : Fin 100000) (j : Fin 128) : Ideal .f32 :=
  (∑ k : Fin 64, X (ix2 P k) * Wt (ix2 k j)) + B (ix2 (0 : Fin 1) j)

/-- The whole 100000 x 128 array. -/
def dense (X : Vec Ideal S100000x64 .f32) (Wt : Vec Ideal S64x128 .f32) (B : Vec Ideal S1x128 .f32) :
    Vec Ideal S100000x128 .f32 :=
  fun i => denseEntry X Wt B ⟨(i 0).val, idx2_lt0 i⟩ ⟨(i 1).val, idx2_lt1 i⟩

/-! ## The index maps, decided over the ten points -/

/-- The feature window moves with the output window down the rows; the weight and the bias stay at block (0, 0); the
    output's blocks are in column block 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row bands is some point's. -/
theorem index_onto : ∀ r : Fin 10, ∃ t : Fin cfg0.N, win0_3.index t = ![r.val, 0] :=
  (by decide +kernel : ∀ r : Fin 10, ∃ t : Fin grid0.N, win0_3.index t = ![r.val, 0])

/-! ## What a point writes back -/

/-- Point `t` writes back its row band of `dense` of the arrays as the region finds them. -/
theorem flushed_eq (c : Dev nD) (t : Fin cfg0.N) :
    (dats m 0 c).flushed 3 t
      = ((cfg0.win 3).blk t).view.read (Elt Ideal) (dense (V m c main_arg0) (V m c main_v0) (V m c main_v3)) := by
  show (cfg0.win 3).cut (grid0.coords t) ((dats m 0 c).after 3 t) = _
  rw [after0_3]
  unfold out0_3
  rw [View.canon_unit_zero origin]
  simp only [View.ld_unit_zero (S := S10000x64) origin, View.ld_unit_zero (S := S64x128) origin,
    View.ld_unit_zero (S := S1x128) origin]
  obtain ⟨e0, e1, e2, e3, e4, e5, e6, e7⟩ := index_facts t
  funext j
  obtain ⟨p, q, rfl⟩ : ∃ (p : Fin 10000) (q : Fin 128), j = ix2 p q := ⟨j 0, j 1, eq_ix2 j⟩
  show k0_pay1 (iblk m c 0 t) (iblk m c 1 t) (iblk m c 2 t) (ix2 p q)
    = dense (V m c main_arg0) (V m c main_v0) (V m c main_v3) (((cfg0.win 3).blk t).view.emb (ix2 p q))
  refine (Block.stored_apply (iblk m c 0 t) (iblk m c 1 t) (iblk m c 2 t) p q).trans ?_
  have key : ∀ (X : Vec Ideal S100000x64 .f32) (Wt : Vec Ideal S64x128 .f32) (B : Vec Ideal S1x128 .f32),
      (∑ k : Fin 64, X (((cfg0.win 0).blk t).view.emb (ix2 p k)) * Wt (((cfg0.win 1).blk t).view.emb (ix2 k q)))
          + B (((cfg0.win 2).blk t).view.emb (ix2 (0 : Fin 1) q))
        = dense X Wt B (((cfg0.win 3).blk t).view.emb (ix2 p q)) := by
    intro X Wt B
    have hx : ∀ k : Fin 64, ((cfg0.win 0).blk t).view.emb (ix2 p k)
        = ix2 ⟨((((cfg0.win 3).blk t).view.emb (ix2 p q)) 0).val, idx2_lt0 _⟩ k := fun k => by
      funext a; apply Fin.ext
      match a with
      | ⟨0, _⟩ => show win0_0.index t (0 : Fin 2) * 10000 + 1 * p.val = win0_3.index t (0 : Fin 2) * 10000 + 1 * p.val; omega
      | ⟨1, _⟩ => show win0_0.index t (1 : Fin 2) * 64 + 1 * k.val = k.val; omega
    have hw : ∀ k : Fin 64, ((cfg0.win 1).blk t).view.emb (ix2 k q)
        = ix2 k ⟨((((cfg0.win 3).blk t).view.emb (ix2 p q)) 1).val, idx2_lt1 _⟩ := fun k => by
      funext a; apply Fin.ext
      match a with
      | ⟨0, _⟩ => show win0_1.index t (0 : Fin 2) * 64 + 1 * k.val = k.val; omega
      | ⟨1, _⟩ => show win0_1.index t (1 : Fin 2) * 128 + 1 * q.val = win0_3.index t (1 : Fin 2) * 128 + 1 * q.val; omega
    have hb : ((cfg0.win 2).blk t).view.emb (ix2 (0 : Fin 1) q)
        = ix2 (0 : Fin 1) ⟨((((cfg0.win 3).blk t).view.emb (ix2 p q)) 1).val, idx2_lt1 _⟩ := by
      funext a; apply Fin.ext
      match a with
      | ⟨0, _⟩ => show win0_2.index t (0 : Fin 2) * 1 + 1 * 0 = 0; omega
      | ⟨1, _⟩ => show win0_2.index t (1 : Fin 2) * 128 + 1 * q.val = win0_3.index t (1 : Fin 2) * 128 + 1 * q.val; omega
    unfold dense denseEntry
    rw [hb]
    refine congrArg (· + _) (Finset.sum_congr rfl fun k _ => ?_)
    rw [hx k, hw k]
  exact key (V m c main_arg0) (V m c main_v0) (V m c main_v3)

/-! ## The ten blocks tile the output -/

/-- An index of the output is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v4).slice (win0_3.rect t)).set ↔ _
  rw [View.set_slice_whole, Rect.mem_set_unit]
  exact Iff.rfl

/-- Row `P` of the output is in the block of the point whose band is `P / 10000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-! ## The array after the region -/

/-- The output array after the region is `dense` of the features, the weight and the bias as the region finds them. -/
theorem output_array (c : Dev nD) :
    (dats m 0 c).arrAt 3 cfg0.N = dense (V m c main_arg0) (V m c main_v0) (V m c main_v3) :=
  (dats m 0 c).arrAt_eq_of_cover 3 _ (fun t _ => flushed_eq m c t) (covered)

end Cert.KernelIdeal.Dense

end
-- ==== Proof.KernelTail.lean ====
/-
  The kernel program's lines after its one region compute the shared aggregation.

  After the region the program slices the region's output array into its first 64 columns (`h`) and its last 64
  (`lin`), and then runs, line for line, the aggregation the reference runs on its own two products. Read from ANY
  contents `W` of the buffers, the result buffer after those lines is `aggregate` of the two slices of the output array,
  the edge list and the convolution bias.
-/
import proofs.«160658_j27410481283133_1_alg».proof.Proof.Gen.KernelIdeal.Frame
import proofs.«160658_j27410481283133_1_alg».proof.Proof.Tail
import Idealize.ShloMosaic.Lib.StableHlo.Run
import Idealize.ShloMosaic.PureOps.Ideal

set_option maxRecDepth 16384

noncomputable section

namespace Cert.KernelIdeal.Conv

open Idealize.ShloMosaic Idealize.ShloMosaic.TcCoe Idealize.SL.Sem Idealize.ShloMosaic.StableHlo
open Cert.KernelIdeal Cert.KernelIdeal.Gen

set_option maxHeartbeats 8000000 in
/-- The result buffer after the lines that follow the region, from any contents `W`: the aggregation of the output
    array's two column halves. -/
theorem after_tail (W : Valuation τ sig (Elt Ideal)) :
    StableHlo.after (hostOps1 (F := Ideal)) W (Proc.devRef .tc main_v52)
      = Cert.ReferenceIdeal.Conv.aggregate (F := Ideal)
          (extractStridedSlice S100000x64 ![0, 0] (W (Proc.devRef .tc main_v4)) slices_S100000x128_S100000x64_0_0)
          (extractStridedSlice S100000x64 ![0, 64] (W (Proc.devRef .tc main_v4)) slices_S100000x128_S100000x64_0_64)
          (W (Proc.devRef .tc main_arg1)) (W (Proc.devRef .tc main_arg3)) := by
  after_results_simp <;> rfl

end Cert.KernelIdeal.Conv

end
-- ==== Proof.Operands.lean ====
/-
  The two arrays the host writes before the region, entry by entry.

  The weight the region is given is the convolution weight `W` and the residual weight `Wl` side by side: column `J` of
  the 64 x 128 array is column `J` of `W` for `J < 64` and column `J - 64` of `Wl` for `J ≥ 64`. The bias it is given is
  one row of 128 numbers: 64 zeros followed by the residual bias `bl`.
-/
import proofs.«160658_j27410481283133_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Operands

open Idealize.ShloMosaic Idealize.ShloMosaic.TcCoe Idealize.ShloMosaic.ValueIdx Idealize.SL.Sem Idealize.ShloMosaic.StableHlo
open Cert.KernelIdeal Cert.KernelIdeal.Gen

/-! ## The two arrays as terms -/

/-- The two weights side by side. -/
def joined (W Wl : Vec Ideal S64x64 .f32) : Vec Ideal S64x128 .f32 :=
  concatenate S64x128 1 [⟨S64x64, W⟩, ⟨S64x64, Wl⟩] concatenates_S64x64_S64x64_S64x128_d1

/-- Sixty-four zeros followed by the residual bias, as one row. -/
def biasRow (bl : Vec Ideal S64 .f32) : Vec Ideal S1x128 .f32 :=
  shapeCast S1x128 (concatenate S128 0 [⟨S64, broadcastInDim S64 ![] bcast_S_S64 (constant (F := Ideal) S_ .f32 0x00000000#32)⟩, ⟨S64, bl⟩]
    concatenates_S64_S64_S128_d0) shapeCasts_S128_S1x128

variable (m : (ℓ : Loc nD τ sig) → Buf (Elt Ideal) ℓ)

/-- The region finds the joined weights where its second operand is. -/
theorem weight_found (c : Dev nD) :
    V m c main_v0 = joined (m ((c.tc : Thread nD τ).loc main_arg2)) (m ((c.tc : Thread nD τ).loc main_arg4)) := by
  show StableHlo.after hostOps0 (fun b => m (c, b)) (Proc.devRef .tc main_v0) = _
  after_results
  rfl

/-- The region finds the bias row where its third operand is. -/
theorem bias_found (c : Dev nD) :
    V m c main_v3 = biasRow (m ((c.tc : Thread nD τ).loc main_arg5)) := by
  show StableHlo.after hostOps0 (fun b => m (c, b)) (Proc.devRef .tc main_v3) = _
  after_results
  rfl

/-! ## Their entries -/

/-- A column of the left half is a column of the convolution weight. -/
theorem joined_left (W Wl : Vec Ideal S64x64 .f32) (k j : Fin 64) (J : Fin 128) (h : J.val = j.val) :
    joined W Wl (ix2 k J) = W (ix2 k j) := by
  unfold joined
  exact concatenate_pair_apply_left (t := S64x128) (s₁ := S64x64) (s₂ := S64x64) (1 : Fin 2) W Wl
    concatenates_S64x64_S64x64_S64x128_d1 (ix2 k J) rfl (ix2 k j)
    (fun b => by match b with | ⟨0, _⟩ => rfl | ⟨1, _⟩ => exact h.symm)

/-- A column of the right half is a column of the residual weight. -/
theorem joined_right (W Wl : Vec Ideal S64x64 .f32) (k j : Fin 64) (J : Fin 128) (h : J.val = 64 + j.val) :
    joined W Wl (ix2 k J) = Wl (ix2 k j) := by
  unfold joined
  exact concatenate_pair_apply_right (t := S64x128) (s₁ := S64x64) (s₂ := S64x64) (1 : Fin 2) W Wl
    concatenates_S64x64_S64x64_S64x128_d1 (ix2 k J) rfl rfl (ix2 k j)
    (fun b hb => by match b with | ⟨0, _⟩ => rfl | ⟨1, _⟩ => exact absurd rfl hb)
    (by show j.val + 64 = J.val; omega)

/-- The bias row is zero on its left half. -/
theorem biasRow_left (bl : Vec Ideal S64 .f32) (j : Fin 64) (J : Fin 128) (h : J.val = j.val) :
    biasRow bl (ix2 (0 : Fin 1) J) = 0 := by
  unfold biasRow
  refine (shapeCast_apply _ _ (ix2 (0 : Fin 1) J) (ix1 J) ?_).trans ?_
  · rw [Shape.rowMajor_val_one, Shape.rowMajor_val_two]
    show J.val = 0 * 128 + J.val
    omega
  refine (concatenate_pair_apply_left (t := S128) (s₁ := S64) (s₂ := S64) (0 : Fin 1)
    (broadcastInDim S64 ![] bcast_S_S64 (constant (F := Ideal) S_ .f32 0x00000000#32)) bl
    concatenates_S64_S64_S128_d0 (ix1 J) rfl (ix1 j)
    (fun b => by match b with | ⟨0, _⟩ => exact h.symm)).trans ?_
  show Ideal.ofBits .f32 0x00000000#32 = 0
  exact Ideal.ofBits_zero_f32

/-- The bias row is the residual bias on its right half. -/
theorem biasRow_right (bl : Vec Ideal S64 .f32) (j : Fin 64) (J : Fin 128) (h : J.val = 64 + j.val) :
    biasRow bl (ix2 (0 : Fin 1) J) = bl (ix1 j) := by
  unfold biasRow
  refine (shapeCast_apply _ _ (ix2 (0 : Fin 1) J) (ix1 J) ?_).trans ?_
  · rw [Shape.rowMajor_val_one, Shape.rowMajor_val_two]
    show J.val = 0 * 128 + J.val
    omega
  exact concatenate_pair_apply_right (t := S128) (s₁ := S64) (s₂ := S64) (0 : Fin 1)
    (broadcastInDim S64 ![] bcast_S_S64 (constant (F := Ideal) S_ .f32 0x00000000#32)) bl
    concatenates_S64_S64_S128_d0 (ix1 J) rfl rfl (ix1 j)
    (fun b hb => by match b with | ⟨0, _⟩ => exact absurd rfl hb)
    (by show j.val + 64 = J.val; omega)

end Cert.KernelIdeal.Operands

end
-- ==== Proof.Halves.lean ====
/-
  The two column halves of the region's output are the reference's two products.

  Take `dense X Wt B (P, J) = (sum over k of X (P, k) * Wt (k, J)) + B (0, J)` with a weight `Wt` whose left 64 columns are
  those of `W` and whose right 64 are those of `Wl`, and a bias row `B` that is zero on its left half and `bl` on its right.
  Then columns 0 .. 63 of `dense` are the features times `W` — the sum plus zero is the sum, for every extended real — and
  columns 64 .. 127 are the features times `Wl`, plus `bl`. Neither step moves a factor across a sum or cancels
  anything, so neither needs the inputs to be finite.
-/
import proofs.«160658_j27410481283133_1_alg».proof.Proof.KernelArray
import proofs.«160658_j27410481283133_1_alg».proof.Proof.Gen.ReferenceIdeal.Read
import Idealize.ShloMosaic.Lib.ValueLayout

noncomputable section

namespace Cert.KernelIdeal.Halves

open Idealize.ShloMosaic Idealize.ShloMosaic.ValueIdx Cert.KernelIdeal Cert.KernelIdeal.Gen Cert.KernelIdeal.Dense

/-! ## The reference's index maps, by coordinates -/

theorem lhs_conv (P : Fin 100000) (j k : Fin 64) : Cert.ReferenceIdeal.Read.lidx_main_v29 (ix2 P j) k = ix2 P k :=
  funext fun a => by match a with | ⟨0, _⟩ => rfl | ⟨1, _⟩ => rfl
theorem rhs_conv (P : Fin 100000) (j k : Fin 64) : Cert.ReferenceIdeal.Read.ridx_main_v29 (ix2 P j) k = ix2 k j :=
  funext fun a => by match a with | ⟨0, _⟩ => rfl | ⟨1, _⟩ => rfl
theorem lhs_lin (P : Fin 100000) (j k : Fin 64) : Cert.ReferenceIdeal.Read.lidx_main_v46 (ix2 P j) k = ix2 P k :=
  funext fun a => by match a with | ⟨0, _⟩ => rfl | ⟨1, _⟩ => rfl
theorem rhs_lin (P : Fin 100000) (j k : Fin 64) : Cert.ReferenceIdeal.Read.ridx_main_v46 (ix2 P j) k = ix2 k j :=
  funext fun a => by match a with | ⟨0, _⟩ => rfl | ⟨1, _⟩ => rfl
theorem bias_lin (P : Fin 100000) (j : Fin 64) :
    Cert.ReferenceIdeal.Read.idx_main_v47 (Cert.ReferenceIdeal.Read.idx_main_v48 (ix2 P j)) = ix1 j :=
  funext fun a => by match a with | ⟨0, _⟩ => rfl

/-! ## The two halves -/

/-- Columns 0 .. 63: the features times the convolution weight. -/
theorem conv_half (X : Vec Ideal S100000x64 .f32) (Wt : Vec Ideal S64x128 .f32) (B : Vec Ideal S1x128 .f32)
    (W : Vec Ideal S64x64 .f32)
    (hW : ∀ (k j : Fin 64) (J : Fin 128), J.val = j.val → Wt (ix2 k J) = W (ix2 k j))
    (hB : ∀ (j : Fin 64) (J : Fin 128), J.val = j.val → B (ix2 (0 : Fin 1) J) = 0) :
    extractStridedSlice S100000x64 ![0, 0] (dense X Wt B) slices_S100000x128_S100000x64_0_0
      = Cert.ReferenceIdeal.Read.val_main_v29 (F := Ideal) X W := by
  funext i
  obtain ⟨P, j, rfl⟩ : ∃ (P : Fin 100000) (j : Fin 64), i = ix2 P j := ⟨i 0, i 1, eq_ix2 i⟩
  have hJ : j.val < 128 := by have := j.isLt; omega
  refine (slice2_axis1_apply 0 (dense X Wt B) slices_S100000x128_S100000x64_0_0 P j ⟨j.val, hJ⟩ (Nat.zero_add _).symm).trans ?_
  refine Eq.trans ?_ (Cert.ReferenceIdeal.Read.val_main_v29_apply X W (ix2 P j)).symm
  show denseEntry X Wt B P ⟨j.val, hJ⟩ = _
  unfold denseEntry
  rw [hB j ⟨j.val, hJ⟩ rfl, add_zero]
  refine Finset.sum_congr rfl fun k _ => ?_
  rw [hW k j ⟨j.val, hJ⟩ rfl, lhs_conv, rhs_conv]

/-- Columns 64 .. 127: the features times the residual weight, plus the residual bias. -/
theorem lin_half (X : Vec Ideal S100000x64 .f32) (Wt : Vec Ideal S64x128 .f32) (B : Vec Ideal S1x128 .f32)
    (Wl : Vec Ideal S64x64 .f32) (bl : Vec Ideal S64 .f32)
    (hW : ∀ (k j : Fin 64) (J : Fin 128), J.val = 64 + j.val → Wt (ix2 k J) = Wl (ix2 k j))
    (hB : ∀ (j : Fin 64) (J : Fin 128), J.val = 64 + j.val → B (ix2 (0 : Fin 1) J) = bl (ix1 j)) :
    extractStridedSlice S100000x64 ![0, 64] (dense X Wt B) slices_S100000x128_S100000x64_0_64
      = Cert.ReferenceIdeal.Read.val_main_v49 (F := Ideal) X Wl bl := by
  funext i
  obtain ⟨P, j, rfl⟩ : ∃ (P : Fin 100000) (j : Fin 64), i = ix2 P j := ⟨i 0, i 1, eq_ix2 i⟩
  have hJ : 64 + j.val < 128 := by have := j.isLt; omega
  refine (slice2_axis1_apply 64 (dense X Wt B) slices_S100000x128_S100000x64_0_64 P j ⟨64 + j.val, hJ⟩ rfl).trans ?_
  refine Eq.trans ?_ (Cert.ReferenceIdeal.Read.val_main_v49_apply X Wl bl (ix2 P j)).symm
  rw [Cert.ReferenceIdeal.Read.val_main_v46_apply, Cert.ReferenceIdeal.Read.val_main_v48_apply,
    Cert.ReferenceIdeal.Read.val_main_v47_apply, bias_lin]
  show denseEntry X Wt B P ⟨64 + j.val, hJ⟩ = _ + _
  unfold denseEntry
  rw [hB j ⟨64 + j.val, hJ⟩ rfl]
  refine congrArg (· + _) (Finset.sum_congr rfl fun k _ => ?_)
  rw [hW k j ⟨64 + j.val, hJ⟩ rfl, lhs_lin, rhs_lin]

end Cert.KernelIdeal.Halves

end
-- ==== Proof.KernelRun.lean ====
/-
  The kernel program's run, with its result named.

  The lines before the region put the two weights side by side and build the bias row; the region leaves its output array
  at `dense` of the features, that weight and that row; the lines after it aggregate the output's two column halves. The
  first half is the features times the convolution weight and the second the features times the residual weight plus
  the residual bias, so the result is the shared aggregation of exactly the two products the reference forms.
-/
import proofs.«160658_j27410481283133_1_alg».proof.Proof.Gen.KernelIdeal.Frame
import proofs.«160658_j27410481283133_1_alg».proof.Proof.KernelArray
import proofs.«160658_j27410481283133_1_alg».proof.Proof.KernelTail
import proofs.«160658_j27410481283133_1_alg».proof.Proof.Operands
import proofs.«160658_j27410481283133_1_alg».proof.Proof.Halves
import proofs.«160658_j27410481283133_1_alg».proof.Proof.Tail

set_option maxRecDepth 16384

noncomputable section

namespace Cert.KernelIdeal.Result

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result: the aggregation, over the edge list, of the features times the convolution weight, plus the
    convolution bias, plus the features times the residual weight plus the residual bias. -/
def result (c : Dev nD) : Buf (Elt Ideal) ((c.tc : Thread nD τ).loc main_v52) :=
  Cert.ReferenceIdeal.Conv.aggregate (F := Ideal)
    (Cert.ReferenceIdeal.Read.val_main_v29 (F := Ideal) (m ((c.tc : Thread nD τ).loc main_arg0)) (m ((c.tc : Thread nD τ).loc main_arg2)))
    (Cert.ReferenceIdeal.Read.val_main_v49 (F := Ideal) (m ((c.tc : Thread nD τ).loc main_arg0)) (m ((c.tc : Thread nD τ).loc main_arg4))
      (m ((c.tc : Thread nD τ).loc main_arg5)))
    (m ((c.tc : Thread nD τ).loc main_arg1)) (m ((c.tc : Thread nD τ).loc main_arg3))

/-- What the result buffer holds after the lines that follow the region. -/
theorem result_eq (c : Dev nD) :
    Pipeline.afterTail₀ cfgs (dats m) 0 (V0 m) [hostOps1] c main_v52 = result m c := by
  have hA : Pipeline.withArrays (cfgs 0).spec c (V0 m c) (fun w => (dats m 0 c).arrAt w (cfgs 0).N) (Proc.devRef .tc main_v4)
      = Dense.dense (m ((c.tc : Thread nD τ).loc main_arg0))
          (Operands.joined (m ((c.tc : Thread nD τ).loc main_arg2)) (m ((c.tc : Thread nD τ).loc main_arg4)))
          (Operands.biasRow (m ((c.tc : Thread nD τ).loc main_arg5))) :=
    (Pipeline.withArrays_arr spec0 launch0.win.arr_inj c _ _ 3).trans
      ((Dense.output_array m c).trans (by rw [V_main_arg0, Operands.weight_found, Operands.bias_found]))
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1
      (by exact (by decide : ∀ w, Pipeline.arrRef spec0 w ≠ main_arg1))).trans (V_main_arg1 m c)
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3
      (by exact (by decide : ∀ w, Pipeline.arrRef spec0 w ≠ main_arg3))).trans (V_main_arg3 m c)
  have ht := Conv.after_tail
    (Pipeline.withArrays (cfgs 0).spec c (V0 m c) (fun w => (dats m 0 c).arrAt w (cfgs 0).N))
  rw [hA, h1, h3,
    Halves.conv_half _ _ _ _ (Operands.joined_left _ _) (Operands.biasRow_left _),
    Halves.lin_half _ _ _ _ _ (Operands.joined_right _ _) (Operands.biasRow_right _)] at ht
  exact ht

/-- Every weakly fair execution of the kernel program terminates with the result buffer at `result` and the six
    argument arrays unchanged. -/
theorem run : θ_run defs (onTc (τ := τ) (main (F := Ideal))) ⟨m, fun _ => 0, ρ⟩ fun r => ∀ c : Dev nD,
      r.2.mem ((c.tc : Thread nD τ).loc main_v52) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v52 (Pipeline.mem_restRefs_of main_v52 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A graph convolution with a linear residual, computed two ways, gives equal results on the extended reals.

  With `X` the 100000 x 64 node features, `e` the edge list, `W`, `b` the convolution's weight and bias and `Wl`, `bl` the
  residual's, both programs return

      aggregate (X · W) (X · Wl + bl) e b,

  where `aggregate h lin e b` scatters `h`'s rows along the edges (with a self loop per node), scaled by the inverse
  square roots of the two end points' degrees, and adds `b` and then `lin`.

  The reference forms the two products by two matrix products. The kernel program puts `W` and `Wl` side by side into one
  64 x 128 weight and 64 zeros before `bl` into one bias row, and multiplies ten row bands of `X` by that weight in ten
  grid points, adding the bias row to every row. Columns 0 .. 63 of what it gets are `X · W + 0 = X · W` and columns
  64 .. 127 are `X · Wl + bl`: adding zero is the identity on every extended real, infinite ones included, and nothing
  else is rearranged, so the inputs' finiteness is never used. From there on the two programs run the same lines.
-/
import proofs.«160658_j27410481283133_1_alg».proof.Defs
import proofs.«160658_j27410481283133_1_alg».proof.Proof.Gen.Kernel
import proofs.«160658_j27410481283133_1_alg».proof.Proof.Gen.Kernel.Skeleton
import proofs.«160658_j27410481283133_1_alg».proof.Proof.Gen.Kernel.Launch
import proofs.«160658_j27410481283133_1_alg».proof.Proof.Gen.Kernel.Points
import proofs.«160658_j27410481283133_1_alg».proof.Proof.Gen.Kernel.Frame
import proofs.«160658_j27410481283133_1_alg».proof.Proof.Gen.KernelIdeal
import proofs.«160658_j27410481283133_1_alg».proof.Proof.Gen.KernelIdeal.Skeleton
import proofs.«160658_j27410481283133_1_alg».proof.Proof.Gen.KernelIdeal.Launch
import proofs.«160658_j27410481283133_1_alg».proof.Proof.Gen.KernelIdeal.Points
import proofs.«160658_j27410481283133_1_alg».proof.Proof.Gen.KernelIdeal.Frame
import proofs.«160658_j27410481283133_1_alg».proof.Proof.Gen.ReferenceIdeal
import proofs.«160658_j27410481283133_1_alg».proof.Proof.Gen.ReferenceIdeal.Run
import proofs.«160658_j27410481283133_1_alg».proof.Proof.Gen.ReferenceIdeal.Read
import proofs.«160658_j27410481283133_1_alg».proof.Proof.Gen.Pre_finite_inputs
import proofs.«160658_j27410481283133_1_alg».proof.Proof.Tail
import proofs.«160658_j27410481283133_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end at the aggregation of the same two products. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.Conv.reference_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
